-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1600000x32 .f32) (main_arg2 : IVec S1600000 32) (main_arg3 : IVec S1600000 32) (main_arg4 : FVec F S96x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S128x64 : Shape := ⟨2, ![128, 64]⟩
abbrev S_ : Shape := ⟨0, ![]⟩
abbrev S1600000x1 : Shape := ⟨2, ![1600000, 1]⟩
abbrev S1600000x64 : Shape := ⟨2, ![1600000, 64]⟩
abbrev S64x64 : Shape := ⟨2, ![64, 64]⟩
abbrev S32x64 : Shape := ⟨2, ![32, 64]⟩
abbrev S1x64 : Shape := ⟨2, ![1, 64]⟩
abbrev S8000x64 : Shape := ⟨2, ![8000, 64]⟩
abbrev S8000x32 : Shape := ⟨2, ![8000, 32]⟩
abbrev S100000 : Shape := ⟨1, ![100000]⟩
abbrev S100000x1 : Shape := ⟨2, ![100000, 1]⟩
abbrev S10000x64 : Shape := ⟨2, ![10000, 64]⟩

abbrev nBuf : Space → Nat
  | .hbm => 41
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S64x64, .f32⟩
  | .hbm, ⟨18, _⟩ => ⟨S32x64, .f32⟩
  | .hbm, ⟨19, _⟩ => ⟨S1x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x32, .f32⟩
  | .local _ .vmem, ⟨3, _⟩ => ⟨S8000x32, .f32⟩
  | .local _ .vmem, ⟨4, _⟩ => ⟨S64x64, .f32⟩
  | .local _ .vmem, ⟨5, _⟩ => ⟨S32x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S96x64_S64x64_0_0 : S96x64.Slices ![0, 0] S64x64
  slices_S96x64_S32x64_64_0 : S96x64.Slices ![64, 0] S32x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S128x64 : Shape := ⟨2, ![128, 64]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x96, .f32⟩
  | .hbm, ⟨18, _⟩ => ⟨S1600000x64, .f32⟩
  | .hbm, ⟨19, _⟩ => ⟨S1x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x128, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run, with the result array named.

  @main is four segments: the host operations before the first pallas_call, that call, the host
  operations between the calls, and the second call.  The generated frame module builds each segment and
  the buffer contents at every boundary (`W0` at launch … `W4` at the return) and concludes only that the
  arguments end unchanged.  Here the same segments are launched once more, and the final state is read
  at the result buffer as well: every weakly fair execution terminates, nothing faulting, with the result
  array at what the second call's write-backs leave, `(dat1 (V3 m ρ) c).arrAt 5 cfg1.N`, and the
  arguments as launched.  Stated at any float instance.
-/
import proofs.«125534_j56057913147664_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is one of the buffers the last thread state holds, and at the return it holds the
    second call's output array after its last write-back. -/
theorem result_at_return (c : Dev nD) :
    W4 m ρ c (Proc.devRef .tc main_v26) = (dat1 (V3 m ρ) c).arrAt 5 cfg1.N := W4_arr m ρ c 5

set_option backward.isDefEq.respectTransparency.types false in
/-- The run of @main with the result read: the segments of the generated frame module under the
    library's launch theorem for several regions; the final state is read at every unscoped buffer
    against the last boundary's contents `W4`, of which the result and the eight arguments are kept. -/
theorem run_result : θ_run defs (onTc (τ := τ) (main (F := F))) ⟨m, fun _ => 0, ρ⟩ (fun r => ∀ c : Dev nD,
      r.2.mem ((c.tc : Thread nD τ).loc main_v26) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- at launch the shared ghost resource is the pipelines' initial cells, and no core needs more than that
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- each core starts holding its unscoped buffers at the launch memory, its generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every unscoped buffer whole at `W4`: the final memory agrees with it there
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v26 (by decide))).trans (result_at_return m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.Spec.lean ====
/-
  The mathematics both programs compute, stated once over plain index types.

  A layer of the network is "two matrix products plus a bias": for a row `r` and an output column `c`,
      lin2At x y w1 w2 b r c = (Σ_k x[r,k]·w1[k,c] + Σ_k y[r,k]·w2[k,c]) + b[0,c].
  The kernel computes each layer in this split form (one product per operand).  The reference
  concatenates `x` and `y` along the columns, stacks `w1` on `w2`, and takes ONE product over the
  joined axis of length p + q.  The two agree because a sum over `Fin (p + q)` is the sum over its
  first `p` terms plus the sum over its last `q` terms — a law of any commutative monoid, so it holds
  on the extended reals with no finiteness assumption.
-/
import Idealize.ShloMosaic.PureOps.Ideal
import Idealize.ShloMosaic.Lib.ValueIdx

noncomputable section

namespace Cert.Layer

open Idealize.ShloMosaic Idealize.ShloMosaic.ValueIdx

/-- A rank-2 array of extended reals with `a` rows and `b` columns. -/
abbrev Mat (a b : Nat) : Type := (⟨2, ![a, b]⟩ : Shape).Idx → EReal

/-- One entry of a split layer: row `r` of `x` against column `c` of `w1`, plus row `r` of `y` against
    column `c` of `w2`, plus the bias of column `c` (the bias is a one-row matrix). -/
def lin2At {n p q d : Nat} (x : Mat n p) (y : Mat n q) (w1 : Mat p d) (w2 : Mat q d) (b : Mat 1 d)
    (r : Fin n) (c : Fin d) : EReal :=
  (∑ k : Fin p, x (ix2 r k) * w1 (ix2 k c) + ∑ k : Fin q, y (ix2 r k) * w2 (ix2 k c)) + b (ix2 (0 : Fin 1) c)

/-- The split layer as a whole array. -/
def lin2 {n p q d : Nat} (x : Mat n p) (y : Mat n q) (w1 : Mat p d) (w2 : Mat q d) (b : Mat 1 d) : Mat n d :=
  fun i => lin2At x y w1 w2 b (i 0) (i 1)

/-- The split layer followed by the rectifier `max · 0`. -/
def relu2 {n p q d : Nat} (x : Mat n p) (y : Mat n q) (w1 : Mat p d) (w2 : Mat q d) (b : Mat 1 d) : Mat n d :=
  fun i => max (lin2At x y w1 w2 b (i 0) (i 1)) 0

theorem lin2_apply {n p q d : Nat} (x : Mat n p) (y : Mat n q) (w1 : Mat p d) (w2 : Mat q d) (b : Mat 1 d)
    (r : Fin n) (c : Fin d) : lin2 x y w1 w2 b (ix2 r c) = lin2At x y w1 w2 b r c := rfl

theorem relu2_apply {n p q d : Nat} (x : Mat n p) (y : Mat n q) (w1 : Mat p d) (w2 : Mat q d) (b : Mat 1 d)
    (r : Fin n) (c : Fin d) : relu2 x y w1 w2 b (ix2 r c) = max (lin2At x y w1 w2 b r c) 0 := rfl

end Cert.Layer

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Payload.lean ====
/-
  What each kernel body stores, read at one entry, at the ideal instance.

  Both bodies load two row blocks `x`, `y`, two weight matrices `w1`, `w2` and a one-row bias `b`, and
  store `x·w1 + y·w2 + b` (the second body then takes `max · 0`).  At the ideal instance the change of
  float format before each product is the identity, a product into a zero accumulator is the plain sum
  over the contracted axis, and the broadcast of the bias row reads its one row: entry (p, q) of the
  stored block is `lin2At x y w1 w2 b p q`.
-/
import proofs.«125534_j56057913147664_2_alg».proof.Proof.Gen.KernelIdeal.Skeleton
import proofs.«125534_j56057913147664_2_alg».proof.Proof.Spec
import proofs.«125534_j56057913147664_2_alg».proof.Proof.LibSplitContraction
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen Cert.Layer
open Cert.Lib.SplitContraction

/-! ## The three products' index maps, coordinate by coordinate -/

local notation "dA" => dot_S8000x64_S64x64_S8000x64_1_0_0_1_n_n
local notation "dB" => dot_S8000x32_S32x64_S8000x64_1_0_0_1_n_n
local notation "dC" => dot_S10000x64_S64x64_S10000x64_1_0_0_1_n_n

theorem dA_l0 (j : S8000x64.Idx) (q : (dA).contr.Idx) : ((dA).lhsIdx j q 0).val = (j 0).val := by
  unfold DotDims.lhsIdx
  rw [dif_neg (show ¬(0 : Fin S8000x64.rank) ∈ (dA).lhsBatch by decide), dif_pos (show (0 : Fin S8000x64.rank) ∈ (dA).lhsNonContracting by decide)]
  rfl
theorem dA_r1 (j : S8000x64.Idx) (q : (dA).contr.Idx) : ((dA).rhsIdx j q 1).val = (j 1).val := by
  unfold DotDims.rhsIdx
  rw [dif_neg (show ¬(1 : Fin S64x64.rank) ∈ (dA).rhsBatch by decide), dif_pos (show (1 : Fin S64x64.rank) ∈ (dA).rhsNonContracting by decide)]
  rfl
theorem dB_l0 (j : S8000x64.Idx) (q : (dB).contr.Idx) : ((dB).lhsIdx j q 0).val = (j 0).val := by
  unfold DotDims.lhsIdx
  rw [dif_neg (show ¬(0 : Fin S8000x32.rank) ∈ (dB).lhsBatch by decide), dif_pos (show (0 : Fin S8000x32.rank) ∈ (dB).lhsNonContracting by decide)]
  rfl
theorem dB_r1 (j : S8000x64.Idx) (q : (dB).contr.Idx) : ((dB).rhsIdx j q 1).val = (j 1).val := by
  unfold DotDims.rhsIdx
  rw [dif_neg (show ¬(1 : Fin S32x64.rank) ∈ (dB).rhsBatch by decide), dif_pos (show (1 : Fin S32x64.rank) ∈ (dB).rhsNonContracting by decide)]
  rfl
theorem dC_l0 (j : S10000x64.Idx) (q : (dC).contr.Idx) : ((dC).lhsIdx j q 0).val = (j 0).val := by
  unfold DotDims.lhsIdx
  rw [dif_neg (show ¬(0 : Fin S10000x64.rank) ∈ (dC).lhsBatch by decide), dif_pos (show (0 : Fin S10000x64.rank) ∈ (dC).lhsNonContracting by decide)]
  rfl
theorem dC_r1 (j : S10000x64.Idx) (q : (dC).contr.Idx) : ((dC).rhsIdx j q 1).val = (j 1).val := by
  unfold DotDims.rhsIdx
  rw [dif_neg (show ¬(1 : Fin S64x64.rank) ∈ (dC).rhsBatch by decide), dif_pos (show (1 : Fin S64x64.rank) ∈ (dC).rhsNonContracting by decide)]
  rfl

/-! ## The two payloads -/

/-- Entry (p, q) of what the message body stores. -/
theorem msg_at (x : Vec Ideal S8000x64 .f32) (y : Vec Ideal S8000x32 .f32) (w1 : Vec Ideal S64x64 .f32)
    (w2 : Vec Ideal S32x64 .f32) (b : Vec Ideal S1x64 .f32) (p : Fin 8000) (q : Fin 64) :
    k0_pay1 (F := Ideal) x y w1 w2 b (ix2 p q) = lin2At x y w1 w2 b p q := by
  unfold k0_pay1 lin2At
  simp only [shapeCast_self]
  rw [addf_apply, addf_apply]
  refine congrArg₂ (· + ·) (congrArg₂ (· + ·) ?_ ?_) ?_
  · exact matmul_zero_at (dA) rfl rfl dA_l0 (fun j q => (dA).lhsIdx_val_of_single rfl j q)
      (fun j q => (dA).rhsIdx_val_of_single rfl j q) dA_r1 none _ _ p q
  · exact matmul_zero_at (dB) rfl rfl dB_l0 (fun j q => (dB).lhsIdx_val_of_single rfl j q)
      (fun j q => (dB).rhsIdx_val_of_single rfl j q) dB_r1 none _ _ p q
  · exact broadcastTo_1b_ab_apply b _ p q

/-- Entry (p, q) of what the update body stores. -/
theorem apply_at (x : Vec Ideal S10000x64 .f32) (y : Vec Ideal S10000x64 .f32) (w1 : Vec Ideal S64x64 .f32)
    (w2 : Vec Ideal S64x64 .f32) (b : Vec Ideal S1x64 .f32) (p : Fin 10000) (q : Fin 64) :
    k1_pay1 (F := Ideal) x y w1 w2 b (ix2 p q) = max (lin2At x y w1 w2 b p q) 0 := by
  unfold k1_pay1 lin2At
  simp only [shapeCast_self]
  rw [maximumf_apply, addf_apply, addf_apply]
  refine congrArg₂ max (congrArg₂ (· + ·) (congrArg₂ (· + ·) ?_ ?_) ?_) ?_
  · exact matmul_zero_at (dC) rfl rfl dC_l0 (fun j q => (dC).lhsIdx_val_of_single rfl j q)
      (fun j q => (dC).rhsIdx_val_of_single rfl j q) dC_r1 none _ _ p q
  · exact matmul_zero_at (dC) rfl rfl dC_l0 (fun j q => (dC).lhsIdx_val_of_single rfl j q)
      (fun j q => (dC).rhsIdx_val_of_single rfl j q) dC_r1 none _ _ p q
  · exact broadcastTo_1b_ab_apply b _ p q
  · exact Ideal.ofBits_zero_f32

end Cert.KernelIdeal.Body

end
-- ==== Proof.Region0.lean ====
/-
  The first pallas_call, from blocks to the whole array.

  The call walks the 1,600,000 edge rows in 200 blocks of 8,000.  At block `t` it reads rows
  8000·t … 8000·t + 7999 of the gathered source features and of the edge features, the two weight
  matrices and the bias row whole, and writes rows 8000·t … 8000·t + 7999 of the message array.  So what
  block `t` writes back is block `t` of ONE array — the split layer `lin2` of the arrays the call finds —
  and since the 200 blocks tile the message array, that array ends holding `lin2` of them.

  Everything here is stated for ANY contents `V` of the buffers when the call is entered.
-/
import proofs.«125534_j56057913147664_2_alg».proof.Proof.Gen.KernelIdeal.Frame
import proofs.«125534_j56057913147664_2_alg».proof.Proof.Payload
import Idealize.ShloMosaic.Lib.Pipeline.Value

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The message array as one function of the arrays the call finds. -/
abbrev messages (c : Dev nD) : Buf (Elt Ideal) ((c : Thread nD τ).loc main_v10) :=
  lin2 (V c main_v6) (V c main_arg1) (V c main_v7) (V c main_v8) (V c main_v9)

/-- Where each window's block sits at grid point `t`: the two row-blocked inputs move with the output
    (block row `t`, block column 0); the weights and the bias stay at block (0, 0). -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read at an entry -/

theorem src_block (c : Dev nD) (t : Fin cfg0.N) (p : Fin 8000) (k : Fin 64) (r : Fin 1600000)
    (hr : r.val = win0_5.index t (0 : Fin 2) * 8000 + p.val) :
    iblk0 V c 0 t (ix2 p k) = V c main_v6 (ix2 r k) := by
  obtain ⟨e0, e1, -⟩ := block_indices t
  show V c main_v6 (((cfg0.win 0).blk t).view.emb (ix2 p k)) = _
  refine congrArg _ (funext fun a => Fin.ext ?_)
  match a with
  | ⟨0, _⟩ => show win0_0.index t (0 : Fin 2) * 8000 + 1 * p.val = r.val; omega
  | ⟨1, _⟩ => show win0_0.index t (1 : Fin 2) * 64 + 1 * k.val = k.val; omega

theorem edge_block (c : Dev nD) (t : Fin cfg0.N) (p : Fin 8000) (k : Fin 32) (r : Fin 1600000)
    (hr : r.val = win0_5.index t (0 : Fin 2) * 8000 + p.val) :
    iblk0 V c 1 t (ix2 p k) = V c main_arg1 (ix2 r k) := by
  obtain ⟨-, -, e0, e1, -⟩ := block_indices t
  show V c main_arg1 (((cfg0.win 1).blk t).view.emb (ix2 p k)) = _
  refine congrArg _ (funext fun a => Fin.ext ?_)
  match a with
  | ⟨0, _⟩ => show win0_1.index t (0 : Fin 2) * 8000 + 1 * p.val = r.val; omega
  | ⟨1, _⟩ => show win0_1.index t (1 : Fin 2) * 32 + 1 * k.val = k.val; omega

theorem w1_block (c : Dev nD) (t : Fin cfg0.N) (k : Fin 64) (q : Fin 64) :
    iblk0 V c 2 t (ix2 k q) = V c main_v7 (ix2 k q) := by
  obtain ⟨-, -, -, -, e0, e1, -⟩ := block_indices t
  show V c main_v7 (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem w2_block (c : Dev nD) (t : Fin cfg0.N) (k : Fin 32) (q : Fin 64) :
    iblk0 V c 3 t (ix2 k q) = V c main_v8 (ix2 k q) := by
  obtain ⟨-, -, -, -, -, -, e0, e1, -⟩ := block_indices t
  show V c main_v8 (((cfg0.win 3).blk t).view.emb (ix2 k q)) = _
  refine congrArg _ (funext fun a => Fin.ext ?_)
  match a with
  | ⟨0, _⟩ => show win0_3.index t (0 : Fin 2) * 32 + 1 * k.val = k.val; omega
  | ⟨1, _⟩ => show win0_3.index t (1 : Fin 2) * 64 + 1 * q.val = q.val; omega

theorem bias_block (c : Dev nD) (t : Fin cfg0.N) (u : Fin 1) (q : Fin 64) :
    iblk0 V c 4 t (ix2 u q) = V c main_v9 (ix2 u q) := by
  obtain ⟨-, -, -, -, -, -, -, -, e0, e1, -⟩ := block_indices t
  show V c main_v9 (((cfg0.win 4).blk t).view.emb (ix2 u q)) = _
  refine congrArg _ (funext fun a => Fin.ext ?_)
  match a with
  | ⟨0, _⟩ => show win0_4.index t (0 : Fin 2) * 1 + 1 * u.val = u.val; omega
  | ⟨1, _⟩ => show win0_4.index t (1 : Fin 2) * 64 + 1 * q.val = q.val; omega

/-- The layer of the blocks at point `t`, at local entry (p, q), is the layer of the whole arrays at the
    entry's place (r, q) in the array, r = 8000·t + p. -/
theorem layer_of_blocks (c : Dev nD) (t : Fin cfg0.N) (p : Fin 8000) (q : Fin 64) (r : Fin 1600000)
    (hr : r.val = win0_5.index t (0 : Fin 2) * 8000 + p.val) :
    lin2At (iblk0 V c 0 t) (iblk0 V c 1 t) (iblk0 V c 2 t) (iblk0 V c 3 t) (iblk0 V c 4 t) p q
      = lin2At (V c main_v6) (V c main_arg1) (V c main_v7) (V c main_v8) (V c main_v9) r q := by
  unfold lin2At
  refine congrArg₂ (· + ·) (congrArg₂ (· + ·) ?_ ?_) (bias_block V c t 0 q)
  · exact Finset.sum_congr rfl fun k _ => congrArg₂ (· * ·) (src_block V c t p k r hr) (w1_block V c t k q)
  · exact Finset.sum_congr rfl fun k _ => congrArg₂ (· * ·) (edge_block V c t p k r hr) (w2_block V c t k q)

/-! ## What a point writes back, and the cover -/

/-- What point `t` writes back is block `t` of `messages`. -/
theorem flushed_eq (c : Dev nD) (t : Fin cfg0.N) :
    (dat0 V c).flushed 5 t = ((cfg0.win 5).blk t).view.read (Elt Ideal) (messages V c) := by
  show (cfg0.win 5).cut (grid0.coords t) ((dat0 V c).after 5 t) = _
  rw [after0_5]
  unfold out0_5
  rw [View.canon_unit_zero zero_offsets]
  simp only [View.ld_unit_zero (S := S8000x64) zero_offsets, View.ld_unit_zero (S := S8000x32) zero_offsets,
    View.ld_unit_zero (S := S64x64) zero_offsets, View.ld_unit_zero (S := S32x64) zero_offsets,
    View.ld_unit_zero (S := S1x64) zero_offsets]
  funext j
  obtain ⟨p, q, rfl⟩ : ∃ (p : Fin 8000) (q : Fin 64), j = ix2 p q := ⟨j 0, j 1, eq_ix2 j⟩
  obtain ⟨-, -, -, -, -, -, -, -, -, -, e0, e1⟩ := block_indices t
  have hlt : t.val < 200 := by have h : t.val < grid0.N := t.isLt; rw [N_0] at h; exact h
  have hr : win0_5.index t (0 : Fin 2) * 8000 + p.val < 1600000 := by have := p.isLt; omega
  have hemb : ((cfg0.win 5).blk t).view.emb (ix2 p q) = ix2 (⟨win0_5.index t (0 : Fin 2) * 8000 + p.val, hr⟩ : Fin 1600000) q := by
    funext a; apply Fin.ext
    match a with
    | ⟨0, _⟩ => show win0_5.index t (0 : Fin 2) * 8000 + 1 * p.val = win0_5.index t (0 : Fin 2) * 8000 + p.val; omega
    | ⟨1, _⟩ => show win0_5.index t (1 : Fin 2) * 64 + 1 * q.val = q.val; omega
  show k0_pay1 (iblk0 V c 0 t) (iblk0 V c 1 t) (iblk0 V c 2 t) (iblk0 V c 3 t) (iblk0 V c 4 t) (ix2 p q)
      = messages V c (((cfg0.win 5).blk t).view.emb (ix2 p q))
  rw [hemb]
  refine (Cert.KernelIdeal.Body.msg_at _ _ _ _ _ p q).trans ?_
  exact layer_of_blocks V c t p q _ rfl

/-- An index of the message array is in point `t`'s block iff each coordinate is in the block's range. -/
theorem mem_block (t : Fin cfg0.N) (i : S1600000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v10).slice (win0_5.rect t)).set ↔ _
  rw [View.set_slice_whole, Rect.mem_set_unit]
  exact Iff.rfl

/-- Every row of the message array lies in the block of the point `row / 8000`. -/
theorem covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : (i 0).val / 8000 < cfg0.N := by show _ < grid0.N; rw [N_0]; omega
  refine ⟨⟨(i 0).val / 8000, hN⟩, flush0_5 _, ?_⟩
  obtain ⟨-, -, -, -, -, -, -, -, -, -, e0, e1⟩ := block_indices ⟨(i 0).val / 8000, hN⟩
  rw [mem_block]
  intro a
  match a with
  | ⟨0, _⟩ =>
    show win0_5.index ⟨(i 0).val / 8000, hN⟩ (0 : Fin 2) * 8000 ≤ (i 0).val ∧ (i 0).val < win0_5.index ⟨(i 0).val / 8000, hN⟩ (0 : Fin 2) * 8000 + 8000
    rw [e0]; show (i 0).val / 8000 * 8000 ≤ (i 0).val ∧ (i 0).val < (i 0).val / 8000 * 8000 + 8000; omega
  | ⟨1, _⟩ =>
    show win0_5.index ⟨(i 0).val / 8000, hN⟩ (1 : Fin 2) * 64 ≤ (i 1).val ∧ (i 1).val < win0_5.index ⟨(i 0).val / 8000, hN⟩ (1 : Fin 2) * 64 + 64
    rw [e1]; omega

/-- The message array after the call. -/
theorem final (c : Dev nD) : (dat0 V c).arrAt 5 cfg0.N = messages V c :=
  (dat0 V c).arrAt_eq_of_cover 5 (messages V c) (fun t _ => flushed_eq V c t) covered

end Cert.KernelIdeal.Region0

end
-- ==== Proof.Region1.lean ====
/-
  The second pallas_call, from blocks to the whole array.

  The call walks the 100,000 node rows in 10 blocks of 10,000.  At block `t` it reads rows
  10000·t … 10000·t + 9999 of the node features and of the aggregated messages, the two weight matrices
  and the bias row whole, and writes the same rows of the result.  What block `t` writes back is block
  `t` of ONE array — the rectified split layer `relu2` of the arrays the call finds — and the 10 blocks
  tile the result, which therefore ends holding `relu2` of them.

  Everything here is stated for ANY contents `V` of the buffers when the call is entered.
-/
import proofs.«125534_j56057913147664_2_alg».proof.Proof.Gen.KernelIdeal.Frame
import proofs.«125534_j56057913147664_2_alg».proof.Proof.Payload
import Idealize.ShloMosaic.Lib.Pipeline.Value

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The result array as one function of the arrays the call finds. -/
abbrev updated (c : Dev nD) : Buf (Elt Ideal) ((c : Thread nD τ).loc main_v26) :=
  relu2 (V c main_arg0) (V c main_v22) (V c main_v23) (V c main_v24) (V c main_v25)

/-- Where each window's block sits at grid point `t`: the two row-blocked inputs move with the output
    (block row `t`, block column 0); the weights and the bias stay at block (0, 0). -/
theorem block_indices : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks, read at an entry -/

theorem node_block (c : Dev nD) (t : Fin cfg1.N) (p : Fin 10000) (k : Fin 64) (r : Fin 100000)
    (hr : r.val = win1_5.index t (0 : Fin 2) * 10000 + p.val) :
    iblk1 V c 0 t (ix2 p k) = V c main_arg0 (ix2 r k) := by
  obtain ⟨e0, e1, -⟩ := block_indices t
  show V c main_arg0 (((cfg1.win 0).blk t).view.emb (ix2 p k)) = _
  refine congrArg _ (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

theorem mean_block (c : Dev nD) (t : Fin cfg1.N) (p : Fin 10000) (k : Fin 64) (r : Fin 100000)
    (hr : r.val = win1_5.index t (0 : Fin 2) * 10000 + p.val) :
    iblk1 V c 1 t (ix2 p k) = V c main_v22 (ix2 r k) := by
  obtain ⟨-, -, e0, e1, -⟩ := block_indices t
  show V c main_v22 (((cfg1.win 1).blk t).view.emb (ix2 p k)) = _
  refine congrArg _ (funext fun a => Fin.ext ?_)
  match a with
  | ⟨0, _⟩ => show win1_1.index t (0 : Fin 2) * 10000 + 1 * p.val = r.val; omega
  | ⟨1, _⟩ => show win1_1.index t (1 : Fin 2) * 64 + 1 * k.val = k.val; omega

theorem w1_block (c : Dev nD) (t : Fin cfg1.N) (k : Fin 64) (q : Fin 64) :
    iblk1 V c 2 t (ix2 k q) = V c main_v23 (ix2 k q) := by
  obtain ⟨-, -, -, -, e0, e1, -⟩ := block_indices t
  show V c main_v23 (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

theorem w2_block (c : Dev nD) (t : Fin cfg1.N) (k : Fin 64) (q : Fin 64) :
    iblk1 V c 3 t (ix2 k q) = V c main_v24 (ix2 k q) := by
  obtain ⟨-, -, -, -, -, -, e0, e1, -⟩ := block_indices t
  show V c main_v24 (((cfg1.win 3).blk t).view.emb (ix2 k q)) = _
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

theorem bias_block (c : Dev nD) (t : Fin cfg1.N) (u : Fin 1) (q : Fin 64) :
    iblk1 V c 4 t (ix2 u q) = V c main_v25 (ix2 u q) := by
  obtain ⟨-, -, -, -, -, -, -, -, e0, e1, -⟩ := block_indices t
  show V c main_v25 (((cfg1.win 4).blk t).view.emb (ix2 u q)) = _
  refine congrArg _ (funext fun a => Fin.ext ?_)
  match a with
  | ⟨0, _⟩ => show win1_4.index t (0 : Fin 2) * 1 + 1 * u.val = u.val; omega
  | ⟨1, _⟩ => show win1_4.index t (1 : Fin 2) * 64 + 1 * q.val = q.val; omega

/-- The layer of the blocks at point `t`, at local entry (p, q), is the layer of the whole arrays at the
    entry's place (r, q) in the array, r = 10000·t + p. -/
theorem layer_of_blocks (c : Dev nD) (t : Fin cfg1.N) (p : Fin 10000) (q : Fin 64) (r : Fin 100000)
    (hr : r.val = win1_5.index t (0 : Fin 2) * 10000 + p.val) :
    lin2At (iblk1 V c 0 t) (iblk1 V c 1 t) (iblk1 V c 2 t) (iblk1 V c 3 t) (iblk1 V c 4 t) p q
      = lin2At (V c main_arg0) (V c main_v22) (V c main_v23) (V c main_v24) (V c main_v25) r q := by
  unfold lin2At
  refine congrArg₂ (· + ·) (congrArg₂ (· + ·) ?_ ?_) (bias_block V c t 0 q)
  · exact Finset.sum_congr rfl fun k _ => congrArg₂ (· * ·) (node_block V c t p k r hr) (w1_block V c t k q)
  · exact Finset.sum_congr rfl fun k _ => congrArg₂ (· * ·) (mean_block V c t p k r hr) (w2_block V c t k q)

/-! ## What a point writes back, and the cover -/

/-- What point `t` writes back is block `t` of `updated`. -/
theorem flushed_eq (c : Dev nD) (t : Fin cfg1.N) :
    (dat1 V c).flushed 5 t = ((cfg1.win 5).blk t).view.read (Elt Ideal) (updated V c) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets,
    View.ld_unit_zero (S := S1x64) zero_offsets]
  funext j
  obtain ⟨p, q, rfl⟩ : ∃ (p : Fin 10000) (q : Fin 64), j = ix2 p q := ⟨j 0, j 1, eq_ix2 j⟩
  obtain ⟨-, -, -, -, -, -, -, -, -, -, e0, e1⟩ := block_indices t
  have hlt : t.val < 10 := by have h : t.val < grid1.N := t.isLt; rw [N_1] at h; exact h
  have hr : win1_5.index t (0 : Fin 2) * 10000 + p.val < 100000 := by have := p.isLt; omega
  have hemb : ((cfg1.win 5).blk t).view.emb (ix2 p q) = ix2 (⟨win1_5.index t (0 : Fin 2) * 10000 + p.val, hr⟩ : Fin 100000) q := by
    funext a; apply Fin.ext
    match a with
    | ⟨0, _⟩ => show win1_5.index t (0 : Fin 2) * 10000 + 1 * p.val = win1_5.index t (0 : Fin 2) * 10000 + p.val; omega
    | ⟨1, _⟩ => show win1_5.index t (1 : Fin 2) * 64 + 1 * q.val = q.val; omega
  show k1_pay1 (iblk1 V c 0 t) (iblk1 V c 1 t) (iblk1 V c 2 t) (iblk1 V c 3 t) (iblk1 V c 4 t) (ix2 p q)
      = updated V c (((cfg1.win 5).blk t).view.emb (ix2 p q))
  rw [hemb]
  refine (Cert.KernelIdeal.Body.apply_at _ _ _ _ _ p q).trans ?_
  exact congrArg (max · 0) (layer_of_blocks V c t p q _ rfl)

/-- An index of the result array is in point `t`'s block iff each coordinate is in the block's range. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v26).slice (win1_5.rect t)).set ↔ _
  rw [View.set_slice_whole, Rect.mem_set_unit]
  exact Iff.rfl

/-- Every row of the result array lies in the block of the point `row / 10000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := by show _ < grid1.N; rw [N_1]; omega
  refine ⟨⟨(i 0).val / 10000, hN⟩, flush1_5 _, ?_⟩
  obtain ⟨-, -, -, -, -, -, -, -, -, -, e0, e1⟩ := block_indices ⟨(i 0).val / 10000, hN⟩
  rw [mem_block]
  intro a
  match a with
  | ⟨0, _⟩ =>
    show win1_5.index ⟨(i 0).val / 10000, hN⟩ (0 : Fin 2) * 10000 ≤ (i 0).val ∧ (i 0).val < win1_5.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hN⟩ (1 : Fin 2) * 64 ≤ (i 1).val ∧ (i 1).val < win1_5.index ⟨(i 0).val / 10000, hN⟩ (1 : Fin 2) * 64 + 64
    rw [e1]; omega

/-- The result array after the call. -/
theorem final (c : Dev nD) : (dat1 V c).arrAt 5 cfg1.N = updated V c :=
  (dat1 V c).arrAt_eq_of_cover 5 (updated V c) (fun t _ => flushed_eq V c t) covered

end Cert.KernelIdeal.Region1

end
-- ==== Proof.HostSide.lean ====
/-
  What the two pallas_calls find in their windows' arrays, as functions of the arguments.

  Before the first call the host gathers, for every edge, the feature row of its source node (a negative
  index wrapped by the number of nodes first), cuts the message weights into their first 64 rows and
  their last 32, and lays the message bias out as one row.  Between the calls it sums the messages into
  their destination nodes, counts the edges per destination, divides each sum by the count (at least 1),
  cuts the update weights into their two halves of 64 rows and lays the update bias out as one row.  No
  host operation and no call writes an argument's buffer.
-/
import proofs.«125534_j56057913147664_2_alg».proof.Proof.Gen.KernelIdeal.Frame
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-- For every edge, the feature row of its source node: the source index, with the number of nodes added
    where it is negative, picks a row of the node table. -/
def gathered (nf : (⟨S100000x64, .f32⟩ : BufTy).Contents (Elt F)) (src : (⟨S1600000, .i32⟩ : BufTy).Contents (Elt F)) :
    (⟨S1600000x64, .f32⟩ : BufTy).Contents (Elt F) :=
  Host.gather gather_S100000x64_S1600000x1_S1600000x64_1_0_n_n_0_1_164 nf
    (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src))

/-- The mean of the messages arriving at each node: the messages summed into their destination rows, each
    row divided by the larger of the number of edges arriving there and 1. -/
def meanByDst (dst : (⟨S1600000, .i32⟩ : BufTy).Contents (Elt F)) (msgs : (⟨S1600000x64, .f32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst) msgs)
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## The first call's arrays -/

theorem first_src (c : Dev nD) :
    V1 m ρ c main_v6 = gathered (m ((c : Thread nD τ).loc main_arg0)) (m ((c : Thread nD τ).loc main_arg2)) := by
  show StableHlo.after hostOps0 (W0 m ρ c) (Proc.devRef .tc main_v6) = _
  after_results
  rfl

theorem first_edges (c : Dev nD) : V1 m ρ c main_arg1 = m ((c : Thread nD τ).loc main_arg1) := by
  show StableHlo.after hostOps0 (W0 m ρ c) (Proc.devRef .tc main_arg1) = _
  after_results

theorem first_w1 (c : Dev nD) :
    V1 m ρ c main_v7 = extractStridedSlice S64x64 ![0, 0] (m ((c : Thread nD τ).loc main_arg4)) slices_S96x64_S64x64_0_0 := by
  show StableHlo.after hostOps0 (W0 m ρ c) (Proc.devRef .tc main_v7) = _
  after_results

theorem first_w2 (c : Dev nD) :
    V1 m ρ c main_v8 = extractStridedSlice S32x64 ![64, 0] (m ((c : Thread nD τ).loc main_arg4)) slices_S96x64_S32x64_64_0 := by
  show StableHlo.after hostOps0 (W0 m ρ c) (Proc.devRef .tc main_v8) = _
  after_results

theorem first_bias (c : Dev nD) :
    V1 m ρ c main_v9 = shapeCast S1x64 (m ((c : Thread nD τ).loc main_arg5)) shapeCasts_S64_S1x64 := by
  show StableHlo.after hostOps0 (W0 m ρ c) (Proc.devRef .tc main_v9) = _
  after_results
  rfl

/-! ## An argument's buffer at the first call's exit is as launched -/

theorem exit0_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

theorem exit0_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem exit0_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem exit0_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## The second call's arrays -/

theorem second_nodes (c : Dev nD) : V3 m ρ c main_arg0 = m ((c : Thread nD τ).loc main_arg0) := by
  show StableHlo.after hostOps1 (W2 m ρ c) (Proc.devRef .tc main_arg0) = _
  after_results
  exact exit0_arg0 m ρ c

/-- The aggregated messages the second call reads: the mean, by destination, of the message array the
    first call left. -/
theorem second_mean (c : Dev nD) :
    V3 m ρ c main_v22 = meanByDst (m ((c : Thread nD τ).loc main_arg3)) ((dat0 (V1 m ρ) c).arrAt 5 cfg0.N) := by
  show StableHlo.after hostOps1 (W2 m ρ c) (Proc.devRef .tc main_v22) = _
  after_results
  rw [exit0_arg3 m ρ c, show W2 m ρ c (Proc.devRef .tc main_v10) = (dat0 (V1 m ρ) c).arrAt 5 cfg0.N from W2_arr m ρ c 5]
  rfl

theorem second_w1 (c : Dev nD) :
    V3 m ρ c main_v23 = extractStridedSlice S64x64 ![0, 0] (m ((c : Thread nD τ).loc main_arg6)) slices_S128x64_S64x64_0_0 := by
  show StableHlo.after hostOps1 (W2 m ρ c) (Proc.devRef .tc main_v23) = _
  after_results
  rw [exit0_arg6 m ρ c]

theorem second_w2 (c : Dev nD) :
    V3 m ρ c main_v24 = extractStridedSlice S64x64 ![64, 0] (m ((c : Thread nD τ).loc main_arg6)) slices_S128x64_S64x64_64_0 := by
  show StableHlo.after hostOps1 (W2 m ρ c) (Proc.devRef .tc main_v24) = _
  after_results
  rw [exit0_arg6 m ρ c]

theorem second_bias (c : Dev nD) :
    V3 m ρ c main_v25 = shapeCast S1x64 (m ((c : Thread nD τ).loc main_arg7)) shapeCasts_S64_S1x64 := by
  show StableHlo.after hostOps1 (W2 m ρ c) (Proc.devRef .tc main_v25) = _
  after_results
  rw [exit0_arg7 m ρ c]
  rfl

end Cert.KernelIdeal.HostSide

end
-- ==== Proof.KernelSpec.lean ====
/-
  The idealized kernel's result as ONE function of the eight argument arrays.

      messages = lin2 (gathered nodes src) edges (msg weights, rows 0–63) (msg weights, rows 64–95) (msg bias)
      result   = relu2 nodes (meanByDst dst messages) (upd weights, rows 0–63) (upd weights, rows 64–127) (upd bias)
-/
import proofs.«125534_j56057913147664_2_alg».proof.Proof.HostSide
import proofs.«125534_j56057913147664_2_alg».proof.Proof.Spec

noncomputable section

namespace Cert.KernelIdeal.Value

open Idealize.ShloMosaic
open Cert.KernelIdeal Cert.KernelIdeal.Gen Cert.KernelIdeal.HostSide Cert.Layer

/-- The message array as a function of the arguments. -/
def messagesOf (nf : (⟨S100000x64, .f32⟩ : BufTy).Contents (Elt Ideal)) (ef : (⟨S1600000x32, .f32⟩ : BufTy).Contents (Elt Ideal))
    (src : (⟨S1600000, .i32⟩ : BufTy).Contents (Elt Ideal)) (wm : (⟨S96x64, .f32⟩ : BufTy).Contents (Elt Ideal))
    (bm : (⟨S64, .f32⟩ : BufTy).Contents (Elt Ideal)) : (⟨S1600000x64, .f32⟩ : BufTy).Contents (Elt Ideal) :=
  lin2 (gathered nf src) ef (extractStridedSlice S64x64 ![0, 0] wm slices_S96x64_S64x64_0_0)
    (extractStridedSlice S32x64 ![64, 0] wm slices_S96x64_S32x64_64_0) (shapeCast S1x64 bm shapeCasts_S64_S1x64)

/-- The result array as a function of the arguments. -/
def resultOf (nf : (⟨S100000x64, .f32⟩ : BufTy).Contents (Elt Ideal)) (ef : (⟨S1600000x32, .f32⟩ : BufTy).Contents (Elt Ideal))
    (src dst : (⟨S1600000, .i32⟩ : BufTy).Contents (Elt Ideal)) (wm : (⟨S96x64, .f32⟩ : BufTy).Contents (Elt Ideal))
    (bm : (⟨S64, .f32⟩ : BufTy).Contents (Elt Ideal)) (wa : (⟨S128x64, .f32⟩ : BufTy).Contents (Elt Ideal))
    (ba : (⟨S64, .f32⟩ : BufTy).Contents (Elt Ideal)) : (⟨S100000x64, .f32⟩ : BufTy).Contents (Elt Ideal) :=
  relu2 nf (meanByDst dst (messagesOf nf ef src wm bm)) (extractStridedSlice S64x64 ![0, 0] wa slices_S128x64_S64x64_0_0)
    (extractStridedSlice S64x64 ![64, 0] wa slices_S128x64_S64x64_64_0) (shapeCast S1x64 ba shapeCasts_S64_S1x64)

end Cert.KernelIdeal.Value

end
-- ==== Proof.KernelValue.lean ====
/-
  The idealized kernel's run with its result as a function of the arguments.

  The run leaves the result buffer at what the second call's write-backs fold to.  That array is the
  rectified split layer of the arrays the second call finds (Region1), which the host operations between
  the calls computed from the arguments and from the message array the first call left (HostSide); that
  array in turn is the split layer of the arrays the first call finds (Region0), which the host operations
  before it computed from the arguments.  Chained, the result is `resultOf` of the arguments.
-/
import proofs.«125534_j56057913147664_2_alg».proof.Proof.KernelRun
import proofs.«125534_j56057913147664_2_alg».proof.Proof.Region0
import proofs.«125534_j56057913147664_2_alg».proof.Proof.Region1
import proofs.«125534_j56057913147664_2_alg».proof.Proof.KernelSpec

noncomputable section

namespace Cert.KernelIdeal.Value

open Idealize.ShloMosaic Idealize.ShloMosaic.TcCoe Idealize.SL.Sem
open Cert.KernelIdeal Cert.KernelIdeal.Gen Cert.KernelIdeal.HostSide Cert.Layer

variable (m : (ℓ : Loc nD τ sig) → Buf (Elt Ideal) ℓ) (ρ : Dev nD → PrngReg)

/-- Equal operands give equal layers. -/
theorem lin2_congr {n p q d : Nat} {x x' : Mat n p} {y y' : Mat n q} {w1 w1' : Mat p d} {w2 w2' : Mat q d} {b b' : Mat 1 d}
    (hx : x = x') (hy : y = y') (h1 : w1 = w1') (h2 : w2 = w2') (hb : b = b') :
    lin2 x y w1 w2 b = lin2 x' y' w1' w2' b' := by subst hx hy h1 h2 hb; rfl

theorem relu2_congr {n p q d : Nat} {x x' : Mat n p} {y y' : Mat n q} {w1 w1' : Mat p d} {w2 w2' : Mat q d} {b b' : Mat 1 d}
    (hx : x = x') (hy : y = y') (h1 : w1 = w1') (h2 : w2 = w2') (hb : b = b') :
    relu2 x y w1 w2 b = relu2 x' y' w1' w2' b' := by subst hx hy h1 h2 hb; rfl

/-- The message array the first call leaves, as a function of the arguments. -/
theorem messages_left (c : Dev nD) :
    (dat0 (V1 m ρ) c).arrAt 5 cfg0.N
      = messagesOf (m ((c : Thread nD τ).loc main_arg0)) (m ((c : Thread nD τ).loc main_arg1))
          (m ((c : Thread nD τ).loc main_arg2)) (m ((c : Thread nD τ).loc main_arg4)) (m ((c : Thread nD τ).loc main_arg5)) :=
  (Region0.final (V1 m ρ) c).trans
    (lin2_congr (first_src m ρ c) (first_edges m ρ c) (first_w1 m ρ c) (first_w2 m ρ c) (first_bias m ρ c))

/-- The result array the second call leaves, as a function of the arguments. -/
theorem result_left (c : Dev nD) :
    (dat1 (V3 m ρ) c).arrAt 5 cfg1.N
      = resultOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (Region1.final (V3 m ρ) c).trans
    (relu2_congr (second_nodes m ρ c)
      ((second_mean m ρ c).trans (congrArg (meanByDst (m ((c : Thread nD τ).loc main_arg3))) (messages_left m ρ c)))
      (second_w1 m ρ c) (second_w2 m ρ c) (second_bias m ρ c))

/-- Every weakly fair execution of the idealized kernel terminates, nothing faulting, with the result at
    `resultOf` of the arguments and the arguments unchanged. -/
theorem run : θ_run defs (onTc (τ := τ) (main (F := Ideal))) ⟨m, fun _ => 0, ρ⟩ (fun r => ∀ c : Dev nD,
      r.2.mem ((c.tc : Thread nD τ).loc main_v26)
        = resultOf (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_left m ρ c), (h c).2⟩)
    (Cert.KernelIdeal.Run.run_result (F := Ideal) m ρ)

end Cert.KernelIdeal.Value

end
-- ==== Proof.ReferenceStages.lean ====
/-
  The reference program's result, stage by stage, at the ideal instance.

  The reference joins the gathered source features with the edge features along the columns and
  multiplies the joined rows of length 96 by the message weights; later it joins the node features with
  the aggregated messages and multiplies the joined rows of length 128 by the update weights.  Read at
  an entry, each product is a sum over the joined axis whose first terms come from the first operand and
  whose last terms from the second, so it is the split layer `lin2` of the two operands against the top
  and the bottom rows of the weights — for ANY matrices `w1`, `w2`, `b` that hold those rows and the bias
  (the kernel's host code cuts them out; here they are hypotheses).
-/
import proofs.«125534_j56057913147664_2_alg».proof.Proof.Gen.ReferenceIdeal.Read
import proofs.«125534_j56057913147664_2_alg».proof.Proof.Spec
import proofs.«125534_j56057913147664_2_alg».proof.Proof.LibSplitContraction
import Idealize.ShloMosaic.Lib.Pipeline.Value
import Idealize.ShloMosaic.Lib.ValueIdx

noncomputable section

namespace Cert.ReferenceIdeal.Stages

open Idealize.ShloMosaic Idealize.ShloMosaic.ValueIdx
open Cert.ReferenceIdeal Cert.ReferenceIdeal.Gen Cert.ReferenceIdeal.Read Cert.Layer Cert.Lib.SplitContraction

/-! ## The message stage -/

/-- The joined message operand read in its first 64 columns is the gathered source features. -/
theorem joined_msg_left (x0 : (⟨S100000x64, .f32⟩ : BufTy).Contents (Elt Ideal)) (x1 : (⟨S1600000x32, .f32⟩ : BufTy).Contents (Elt Ideal))
    (x2 : (⟨S1600000, .i32⟩ : BufTy).Contents (Elt Ideal)) (r : Fin 1600000) (k : Fin 64) :
    val_main_v7 (F := Ideal) x0 x1 x2 (ix2 r (Fin.castAdd 32 k)) = val_main_v6 (F := Ideal) x0 x2 (ix2 r k) := by
  unfold val_main_v7
  exact concatenate_pair_apply_left (t := S1600000x96) (s₁ := S1600000x64) (s₂ := S1600000x32) 1
    (val_main_v6 (F := Ideal) x0 x2) x1 concatenates_S1600000x64_S1600000x32_S1600000x96_d1
    (ix2 r (Fin.castAdd 32 k)) rfl (ix2 r k) (fun b => by
    match b with
    | ⟨0, _⟩ => rfl
    | ⟨1, _⟩ => rfl)

/-- Read in its last 32 columns it is the edge features. -/
theorem joined_msg_right (x0 : (⟨S100000x64, .f32⟩ : BufTy).Contents (Elt Ideal)) (x1 : (⟨S1600000x32, .f32⟩ : BufTy).Contents (Elt Ideal))
    (x2 : (⟨S1600000, .i32⟩ : BufTy).Contents (Elt Ideal)) (r : Fin 1600000) (k : Fin 32) :
    val_main_v7 (F := Ideal) x0 x1 x2 (ix2 r (Fin.natAdd 64 k)) = x1 (ix2 r k) := by
  unfold val_main_v7
  exact concatenate_pair_apply_right (t := S1600000x96) (s₁ := S1600000x64) (s₂ := S1600000x32) 1
    (val_main_v6 (F := Ideal) x0 x2) x1 concatenates_S1600000x64_S1600000x32_S1600000x96_d1
    (ix2 r (Fin.natAdd 64 k)) rfl rfl (ix2 r k) (fun b hb => by
    match b, hb with
    | ⟨0, _⟩, _ => rfl
    | ⟨1, _⟩, hb => exact absurd rfl hb) (by
    show k.val + 64 = 64 + k.val
    omega)

/-- The reference's messages are the split layer of the gathered features and the edge features against
    the top 64 and the bottom 32 rows of the message weights, plus the message bias. -/
theorem messages_eq (x0 : (⟨S100000x64, .f32⟩ : BufTy).Contents (Elt Ideal)) (x1 : (⟨S1600000x32, .f32⟩ : BufTy).Contents (Elt Ideal))
    (x2 : (⟨S1600000, .i32⟩ : BufTy).Contents (Elt Ideal)) (x4 : (⟨S96x64, .f32⟩ : BufTy).Contents (Elt Ideal))
    (x5 : (⟨S64, .f32⟩ : BufTy).Contents (Elt Ideal))
    (w1 : Mat 64 64) (w2 : Mat 32 64) (b : Mat 1 64)
    (hw1 : ∀ (k : Fin 64) (q : Fin 64), w1 (ix2 k q) = x4 (ix2 (Fin.castAdd 32 k) q))
    (hw2 : ∀ (k : Fin 32) (q : Fin 64), w2 (ix2 k q) = x4 (ix2 (Fin.natAdd 64 k) q))
    (hb : ∀ q : Fin 64, b (ix2 (0 : Fin 1) q) = x5 (ix1 q)) :
    val_main_v11 (F := Ideal) x0 x1 x2 x4 x5 = lin2 (val_main_v6 (F := Ideal) x0 x2) x1 w1 w2 b := by
  funext i
  obtain ⟨r, q, rfl⟩ : ∃ (r : Fin 1600000) (q : Fin 64), i = ix2 r q := ⟨i 0, i 1, eq_ix2 i⟩
  rw [val_main_v11_apply, val_main_v8_apply, val_main_v10_apply, val_main_v9_apply, lin2_apply]
  unfold lin2At
  refine congrArg₂ (· + ·) ?_ ?_
  · refine sum_joined 64 32 _ _ _ (fun k => ?_) (fun k => ?_)
    · refine congrArg₂ (· * ·) ?_ ?_
      · exact (congrArg (val_main_v7 (F := Ideal) x0 x1 x2) (funext fun a => by
          match a with
          | ⟨0, _⟩ => rfl
          | ⟨1, _⟩ => rfl)).trans (joined_msg_left x0 x1 x2 r k)
      · exact (congrArg x4 (funext fun a => by
          match a with
          | ⟨0, _⟩ => rfl
          | ⟨1, _⟩ => rfl)).trans (hw1 k q).symm
    · refine congrArg₂ (· * ·) ?_ ?_
      · exact (congrArg (val_main_v7 (F := Ideal) x0 x1 x2) (funext fun a => by
          match a with
          | ⟨0, _⟩ => rfl
          | ⟨1, _⟩ => rfl)).trans (joined_msg_right x0 x1 x2 r k)
      · exact (congrArg x4 (funext fun a => by
          match a with
          | ⟨0, _⟩ => rfl
          | ⟨1, _⟩ => rfl)).trans (hw2 k q).symm
  · exact (congrArg x5 (funext fun a => by
      match a with
      | ⟨0, _⟩ => rfl)).trans (hb q).symm

/-! ## The update stage -/

/-- The joined update operand read in its first 64 columns is the node features. -/
theorem joined_upd_left (x0 : (⟨S100000x64, .f32⟩ : BufTy).Contents (Elt Ideal)) (x1 : (⟨S1600000x32, .f32⟩ : BufTy).Contents (Elt Ideal))
    (x2 x3 : (⟨S1600000, .i32⟩ : BufTy).Contents (Elt Ideal)) (x4 : (⟨S96x64, .f32⟩ : BufTy).Contents (Elt Ideal))
    (x5 : (⟨S64, .f32⟩ : BufTy).Contents (Elt Ideal)) (r : Fin 100000) (k : Fin 64) :
    val_main_v24 (F := Ideal) x0 x1 x2 x3 x4 x5 (ix2 r (Fin.castAdd 64 k)) = x0 (ix2 r k) := by
  unfold val_main_v24
  exact concatenate_pair_apply_left (t := S100000x128) (s₁ := S100000x64) (s₂ := S100000x64) 1
    x0 (val_main_v23 (F := Ideal) x0 x1 x2 x3 x4 x5) concatenates_S100000x64_S100000x64_S100000x128_d1
    (ix2 r (Fin.castAdd 64 k)) rfl (ix2 r k) (fun b => by
    match b with
    | ⟨0, _⟩ => rfl
    | ⟨1, _⟩ => rfl)

/-- Read in its last 64 columns it is the aggregated messages. -/
theorem joined_upd_right (x0 : (⟨S100000x64, .f32⟩ : BufTy).Contents (Elt Ideal)) (x1 : (⟨S1600000x32, .f32⟩ : BufTy).Contents (Elt Ideal))
    (x2 x3 : (⟨S1600000, .i32⟩ : BufTy).Contents (Elt Ideal)) (x4 : (⟨S96x64, .f32⟩ : BufTy).Contents (Elt Ideal))
    (x5 : (⟨S64, .f32⟩ : BufTy).Contents (Elt Ideal)) (r : Fin 100000) (k : Fin 64) :
    val_main_v24 (F := Ideal) x0 x1 x2 x3 x4 x5 (ix2 r (Fin.natAdd 64 k)) = val_main_v23 (F := Ideal) x0 x1 x2 x3 x4 x5 (ix2 r k) := by
  unfold val_main_v24
  exact concatenate_pair_apply_right (t := S100000x128) (s₁ := S100000x64) (s₂ := S100000x64) 1
    x0 (val_main_v23 (F := Ideal) x0 x1 x2 x3 x4 x5) concatenates_S100000x64_S100000x64_S100000x128_d1
    (ix2 r (Fin.natAdd 64 k)) rfl rfl (ix2 r k) (fun b hb => by
    match b, hb with
    | ⟨0, _⟩, _ => rfl
    | ⟨1, _⟩, hb => exact absurd rfl hb) (by
    show k.val + 64 = 64 + k.val
    omega)

/-- The reference's result is the rectified split layer of the node features and the aggregated messages
    against the top and the bottom 64 rows of the update weights, plus the update bias. -/
theorem result_eq (x0 : (⟨S100000x64, .f32⟩ : BufTy).Contents (Elt Ideal)) (x1 : (⟨S1600000x32, .f32⟩ : BufTy).Contents (Elt Ideal))
    (x2 x3 : (⟨S1600000, .i32⟩ : BufTy).Contents (Elt Ideal)) (x4 : (⟨S96x64, .f32⟩ : BufTy).Contents (Elt Ideal))
    (x5 : (⟨S64, .f32⟩ : BufTy).Contents (Elt Ideal)) (x6 : (⟨S128x64, .f32⟩ : BufTy).Contents (Elt Ideal))
    (x7 : (⟨S64, .f32⟩ : BufTy).Contents (Elt Ideal))
    (hn : Mat 100000 64) (hhn : val_main_v23 (F := Ideal) x0 x1 x2 x3 x4 x5 = hn)
    (w1 : Mat 64 64) (w2 : Mat 64 64) (b : Mat 1 64)
    (hw1 : ∀ (k : Fin 64) (q : Fin 64), w1 (ix2 k q) = x6 (ix2 (Fin.castAdd 64 k) q))
    (hw2 : ∀ (k : Fin 64) (q : Fin 64), w2 (ix2 k q) = x6 (ix2 (Fin.natAdd 64 k) q))
    (hb : ∀ q : Fin 64, b (ix2 (0 : Fin 1) q) = x7 (ix1 q)) :
    val_main_v29 (F := Ideal) x0 x1 x2 x3 x4 x5 x6 x7 = relu2 x0 hn w1 w2 b := by
  subst hhn
  funext i
  obtain ⟨r, q, rfl⟩ : ∃ (r : Fin 100000) (q : Fin 64), i = ix2 r q := ⟨i 0, i 1, eq_ix2 i⟩
  rw [val_main_v29_apply, val_main_v28_apply, val_main_v25_apply, val_main_v27_apply, val_main_v26_apply,
    val_main_call0_v0_apply, val_main_call0_cst_apply, relu2_apply]
  unfold lin2At
  refine congrArg₂ max (congrArg₂ (· + ·) ?_ ?_) Ideal.ofBits_zero_f32
  · refine sum_joined 64 64 _ _ _ (fun k => ?_) (fun k => ?_)
    · refine congrArg₂ (· * ·) ?_ ?_
      · exact (congrArg (val_main_v24 (F := Ideal) x0 x1 x2 x3 x4 x5) (funext fun a => by
          match a with
          | ⟨0, _⟩ => rfl
          | ⟨1, _⟩ => rfl)).trans (joined_upd_left x0 x1 x2 x3 x4 x5 r k)
      · exact (congrArg x6 (funext fun a => by
          match a with
          | ⟨0, _⟩ => rfl
          | ⟨1, _⟩ => rfl)).trans (hw1 k q).symm
    · refine congrArg₂ (· * ·) ?_ ?_
      · exact (congrArg (val_main_v24 (F := Ideal) x0 x1 x2 x3 x4 x5) (funext fun a => by
          match a with
          | ⟨0, _⟩ => rfl
          | ⟨1, _⟩ => rfl)).trans (joined_upd_right x0 x1 x2 x3 x4 x5 r k)
      · exact (congrArg x6 (funext fun a => by
          match a with
          | ⟨0, _⟩ => rfl
          | ⟨1, _⟩ => rfl)).trans (hw2 k q).symm
  · exact (congrArg x7 (funext fun a => by
      match a with
      | ⟨0, _⟩ => rfl)).trans (hb q).symm

end Cert.ReferenceIdeal.Stages

end
-- ==== Proof.Bridge.lean ====
/-
  The reference's result and the kernel's are one function of the arguments.

  Both programs gather the source features and aggregate the messages by destination with the same host
  operations, so those two steps are the same functions on both sides, applied to equal operands.  What
  differs is each linear layer: the reference multiplies the joined operands by the whole weight matrix,
  the kernel multiplies each operand by its own rows of the weights and adds.  ReferenceStages reads the
  reference's layers as split layers against any matrices holding those rows; the kernel's host code cuts
  exactly those rows out (a slice from row 0, a slice from row 64) and lays the bias out as one row.
-/
import proofs.«125534_j56057913147664_2_alg».proof.Proof.KernelSpec
import proofs.«125534_j56057913147664_2_alg».proof.Proof.ReferenceStages
import Idealize.ShloMosaic.Lib.ValueLayout

noncomputable section

namespace Cert.Bridge

open Idealize.ShloMosaic Idealize.ShloMosaic.ValueIdx Cert.Layer

/-- The reference's gathered source features are the kernel's. -/
theorem gathered_same (x0 : (⟨Cert.ReferenceIdeal.S100000x64, .f32⟩ : BufTy).Contents (Elt Ideal))
    (x2 : (⟨Cert.ReferenceIdeal.S1600000, .i32⟩ : BufTy).Contents (Elt Ideal)) :
    Cert.ReferenceIdeal.Read.val_main_v6 (F := Ideal) x0 x2 = Cert.KernelIdeal.HostSide.gathered (F := Ideal) x0 x2 := rfl

/-- The reference's aggregation of its messages is the kernel's aggregation of the same array. -/
theorem aggregated_same (x0 : (⟨Cert.ReferenceIdeal.S100000x64, .f32⟩ : BufTy).Contents (Elt Ideal))
    (x1 : (⟨Cert.ReferenceIdeal.S1600000x32, .f32⟩ : BufTy).Contents (Elt Ideal))
    (x2 x3 : (⟨Cert.ReferenceIdeal.S1600000, .i32⟩ : BufTy).Contents (Elt Ideal))
    (x4 : (⟨Cert.ReferenceIdeal.S96x64, .f32⟩ : BufTy).Contents (Elt Ideal))
    (x5 : (⟨Cert.ReferenceIdeal.S64, .f32⟩ : BufTy).Contents (Elt Ideal)) :
    Cert.ReferenceIdeal.Read.val_main_v23 (F := Ideal) x0 x1 x2 x3 x4 x5
      = Cert.KernelIdeal.HostSide.meanByDst (F := Ideal) x3 (Cert.ReferenceIdeal.Read.val_main_v11 (F := Ideal) x0 x1 x2 x4 x5) := rfl

/-- The reference's messages are the kernel's. -/
theorem messages_same (x0 : (⟨Cert.ReferenceIdeal.S100000x64, .f32⟩ : BufTy).Contents (Elt Ideal))
    (x1 : (⟨Cert.ReferenceIdeal.S1600000x32, .f32⟩ : BufTy).Contents (Elt Ideal))
    (x2 : (⟨Cert.ReferenceIdeal.S1600000, .i32⟩ : BufTy).Contents (Elt Ideal))
    (x4 : (⟨Cert.ReferenceIdeal.S96x64, .f32⟩ : BufTy).Contents (Elt Ideal))
    (x5 : (⟨Cert.ReferenceIdeal.S64, .f32⟩ : BufTy).Contents (Elt Ideal)) :
    Cert.ReferenceIdeal.Read.val_main_v11 (F := Ideal) x0 x1 x2 x4 x5 = Cert.KernelIdeal.Value.messagesOf x0 x1 x2 x4 x5 :=
  Cert.ReferenceIdeal.Stages.messages_eq x0 x1 x2 x4 x5 _ _ _
    (fun k q => slice2_axis0_apply 0 x4 _ k q (Fin.castAdd 32 k) (by show k.val = 0 + k.val; omega))
    (fun k q => slice2_axis0_apply 64 x4 _ k q (Fin.natAdd 64 k) rfl)
    (fun q => shapeCast_a_1a_apply x5 _ 0 q)

/-- The reference's result is the kernel's function of the arguments. -/
theorem reference_is_kernel (x0 : (⟨Cert.ReferenceIdeal.S100000x64, .f32⟩ : BufTy).Contents (Elt Ideal))
    (x1 : (⟨Cert.ReferenceIdeal.S1600000x32, .f32⟩ : BufTy).Contents (Elt Ideal))
    (x2 x3 : (⟨Cert.ReferenceIdeal.S1600000, .i32⟩ : BufTy).Contents (Elt Ideal))
    (x4 : (⟨Cert.ReferenceIdeal.S96x64, .f32⟩ : BufTy).Contents (Elt Ideal))
    (x5 : (⟨Cert.ReferenceIdeal.S64, .f32⟩ : BufTy).Contents (Elt Ideal))
    (x6 : (⟨Cert.ReferenceIdeal.S128x64, .f32⟩ : BufTy).Contents (Elt Ideal))
    (x7 : (⟨Cert.ReferenceIdeal.S64, .f32⟩ : BufTy).Contents (Elt Ideal)) :
    Cert.ReferenceIdeal.Read.val_main_v29 (F := Ideal) x0 x1 x2 x3 x4 x5 x6 x7
      = Cert.KernelIdeal.Value.resultOf x0 x1 x2 x3 x4 x5 x6 x7 :=
  Cert.ReferenceIdeal.Stages.result_eq x0 x1 x2 x3 x4 x5 x6 x7 _
    ((aggregated_same x0 x1 x2 x3 x4 x5).trans
      (congrArg (Cert.KernelIdeal.HostSide.meanByDst (F := Ideal) x3) (messages_same x0 x1 x2 x4 x5)))
    _ _ _
    (fun k q => slice2_axis0_apply 0 x6 _ k q (Fin.castAdd 64 k) (by show k.val = 0 + k.val; omega))
    (fun k q => slice2_axis0_apply 64 x6 _ k q (Fin.natAdd 64 k) rfl)
    (fun q => shapeCast_a_1a_apply x7 _ 0 q)

end Cert.Bridge

end
-- ==== Proof.lean ====
/-
  The certificate of a message-passing layer: for every edge a linear message of the source node's
  features and the edge's features, the mean of the messages arriving at each node, then a rectified
  linear update of the node's own features and that mean.

  The kernel runs each of the two linear layers as a pallas_call that multiplies each operand by its own
  rows of the weight matrix and adds (gather, aggregation and the cuts of the weights stay on the host);
  the reference joins the operands along the columns and multiplies once by the whole weight matrix.  At
  the ideal instance both results are, entry by entry,
      max ((Σ_k nodes[r,k]·Wa[k,c] + Σ_k mean[r,k]·Wa[64+k,c]) + ba[c]) 0,
      mean = the messages averaged by destination,
      messages[e,c] = (Σ_k nodes[src e,k]·Wm[k,c] + Σ_k edges[e,k]·Wm[64+k,c]) + bm[c],
  because a sum over the joined axis is the sum over its first part plus the sum over its second — a law
  of addition alone, so the finiteness of the inputs is never used.  The frames of the two kernel programs
  are the generated ones; the reference's is its generated run with the result dropped; the idealization
  rewrote nothing, so `preserves` is trivial.
-/
import proofs.«125534_j56057913147664_2_alg».proof.Defs
import proofs.«125534_j56057913147664_2_alg».proof.Proof.Gen.Kernel
import proofs.«125534_j56057913147664_2_alg».proof.Proof.Gen.Kernel.Frame
import proofs.«125534_j56057913147664_2_alg».proof.Proof.Gen.KernelIdeal
import proofs.«125534_j56057913147664_2_alg».proof.Proof.Gen.KernelIdeal.Frame
import proofs.«125534_j56057913147664_2_alg».proof.Proof.Gen.ReferenceIdeal
import proofs.«125534_j56057913147664_2_alg».proof.Proof.Gen.ReferenceIdeal.Run
import proofs.«125534_j56057913147664_2_alg».proof.Proof.Gen.ReferenceIdeal.Read
import proofs.«125534_j56057913147664_2_alg».proof.Proof.Gen.Pre_finite_inputs
import proofs.«125534_j56057913147664_2_alg».proof.Proof.KernelValue
import proofs.«125534_j56057913147664_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the same function of arguments that agree: the kernel's by its run
    read through both calls, the reference's by its generated run, its stages and the bridge. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact (Cert.ReferenceIdeal.Read.val_main_v29_eq _ _ _ _ _ _ _ _).trans (Cert.Bridge.reference_is_kernel _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
